-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S256x64 .f32) (main_arg9 : FVec F S256x64 .f32) (main_arg10 : FVec F S64 .f32) (main_v33 : IVec S_ 1) : IVec S_ 1 :=
  let main_v34 : FVec F S256x64 .f32 := Host.absf main_arg8
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S256x64 .f32 := Host.absf main_arg9
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S256x256 .f32) (main_arg6 : FVec F S256x256 .f32) (main_arg7 : FVec F S256 .f32) (main_arg8 : FVec F S256x64 .f32) (main_arg9 : FVec F S256x64 .f32) (main_arg10 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_v33

def fn {F : FTy → Type} [FloatOps F] (main_arg0 : FVec F S50000x256 .f32) (main_arg1 : IVec S2x800000 32) (main_arg2 : FVec F S256x256 .f32) (main_arg3 : FVec F S256x256 .f32) (main_arg4 : FVec F S256 .f32) (main_arg5 : FVec F S256x256 .f32) (main_arg6 : FVec F S256x256 .f32) (main_arg7 : FVec F S256 .f32) (main_arg8 : FVec F S256x64 .f32) (main_arg9 : FVec F S256x64 .f32) (main_arg10 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S2000x256 : Shape := ⟨2, ![2000, 256]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 75
  | .vmem => 27
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x64, .f32⟩
  | .hbm, ⟨9, _⟩ => ⟨S256x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000x1, .f32⟩
  | .hbm, ⟨17, _⟩ => ⟨S_, .f32⟩
  | .hbm, ⟨18, _⟩ => ⟨S50000x1, .f32⟩
  | .hbm, ⟨19, _⟩ => ⟨S800000x1, .i32⟩
  | .hbm, ⟨20, _⟩ => ⟨S50000x1, .f32⟩
  | .hbm, ⟨21, _⟩ => ⟨S_, .f32⟩
  | .hbm, ⟨22, _⟩ => ⟨S50000x1, .f32⟩
  | .hbm, ⟨23, _⟩ => ⟨S50000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x256, .f32⟩
  | .hbm, ⟨33, _⟩ => ⟨S_, .f32⟩
  | .hbm, ⟨34, _⟩ => ⟨S50000x256, .f32⟩
  | .hbm, ⟨35, _⟩ => ⟨S800000x1, .i32⟩
  | .hbm, ⟨36, _⟩ => ⟨S50000x256, .f32⟩
  | .hbm, ⟨37, _⟩ => ⟨S50000x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x256, .f32⟩
  | .hbm, ⟨50, _⟩ => ⟨S_, .f32⟩
  | .hbm, ⟨51, _⟩ => ⟨S50000x256, .f32⟩
  | .hbm, ⟨52, _⟩ => ⟨S800000x1, .i32⟩
  | .hbm, ⟨53, _⟩ => ⟨S50000x256, .f32⟩
  | .hbm, ⟨54, _⟩ => ⟨S50000x256, .f32⟩
  | .hbm, ⟨55, _⟩ => ⟨S50000x256, .f32⟩
  | .hbm, ⟨56, _⟩ => ⟨S1x256, .f32⟩
  | .hbm, ⟨57, _⟩ => ⟨S50000x256, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x256, .f32⟩
  | .hbm, ⟨67, _⟩ => ⟨S_, .f32⟩
  | .hbm, ⟨68, _⟩ => ⟨S50000x256, .f32⟩
  | .hbm, ⟨69, _⟩ => ⟨S800000x1, .i32⟩
  | .hbm, ⟨70, _⟩ => ⟨S50000x256, .f32⟩
  | .hbm, ⟨71, _⟩ => ⟨S50000x256, .f32⟩
  | .hbm, ⟨72, _⟩ => ⟨S50000x256, .f32⟩
  | .hbm, ⟨73, _⟩ => ⟨S1x64, .f32⟩
  | .hbm, ⟨74, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x64, .f32⟩
  | .local _ .vmem, ⟨23, _⟩ => ⟨S256x64, .f32⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S64_S1x64 : S64.ShapeCasts S1x64
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000x1_S800000x1_S800000x1_1_0_0_1_wf : ScatterDims.WF S50000x1 S800000x1 S800000x1 [1] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S256x64.size a
  hwx2_2 : ∀ i : grid2.Coords, EltTy.bits .f32 = 32 ∨ (Rect.block (s := S256x64) S256x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x64.size a ≤ S256x64.size a
  hwx2_3 : ∀ i : grid2.Coords, EltTy.bits .f32 = 32 ∨ (Rect.block (s := S256x64) S256x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_v21) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S256x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S256x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S50000x64 : Shape := ⟨2, ![50000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x64, .f32⟩
  | .hbm, ⟨9, _⟩ => ⟨S256x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x256, .f32⟩
  | .hbm, ⟨24, _⟩ => ⟨S_, .f32⟩
  | .hbm, ⟨25, _⟩ => ⟨S50000x256, .f32⟩
  | .hbm, ⟨26, _⟩ => ⟨S800000x1, .i32⟩
  | .hbm, ⟨27, _⟩ => ⟨S50000x256, .f32⟩
  | .hbm, ⟨28, _⟩ => ⟨S_, .f32⟩
  | .hbm, ⟨29, _⟩ => ⟨S800000x1, .f32⟩
  | .hbm, ⟨30, _⟩ => ⟨S_, .f32⟩
  | .hbm, ⟨31, _⟩ => ⟨S50000x1, .f32⟩
  | .hbm, ⟨32, _⟩ => ⟨S800000x1, .i32⟩
  | .hbm, ⟨33, _⟩ => ⟨S50000x1, .f32⟩
  | .hbm, ⟨34, _⟩ => ⟨S_, .f32⟩
  | .hbm, ⟨35, _⟩ => ⟨S50000x1, .f32⟩
  | .hbm, ⟨36, _⟩ => ⟨S50000x1, .f32⟩
  | .hbm, ⟨37, _⟩ => ⟨S50000x256, .f32⟩
  | .hbm, ⟨38, _⟩ => ⟨S50000x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S1x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S_, .f32⟩
  | .hbm, ⟨62, _⟩ => ⟨S800000x1, .f32⟩
  | .hbm, ⟨63, _⟩ => ⟨S_, .f32⟩
  | .hbm, ⟨64, _⟩ => ⟨S50000x1, .f32⟩
  | .hbm, ⟨65, _⟩ => ⟨S800000x1, .i32⟩
  | .hbm, ⟨66, _⟩ => ⟨S50000x1, .f32⟩
  | .hbm, ⟨67, _⟩ => ⟨S_, .f32⟩
  | .hbm, ⟨68, _⟩ => ⟨S50000x1, .f32⟩
  | .hbm, ⟨69, _⟩ => ⟨S50000x1, .f32⟩
  | .hbm, ⟨70, _⟩ => ⟨S50000x256, .f32⟩
  | .hbm, ⟨71, _⟩ => ⟨S50000x256, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S50000x256, .f32⟩
  | .hbm, ⟨78, _⟩ => ⟨S_, .f32⟩
  | .hbm, ⟨79, _⟩ => ⟨S50000x256, .f32⟩
  | .hbm, ⟨80, _⟩ => ⟨S50000x256, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x256, .f32⟩
  | .hbm, ⟨90, _⟩ => ⟨S_, .f32⟩
  | .hbm, ⟨91, _⟩ => ⟨S50000x256, .f32⟩
  | .hbm, ⟨92, _⟩ => ⟨S800000x1, .i32⟩
  | .hbm, ⟨93, _⟩ => ⟨S50000x256, .f32⟩
  | .hbm, ⟨94, _⟩ => ⟨S_, .f32⟩
  | .hbm, ⟨95, _⟩ => ⟨S800000x1, .f32⟩
  | .hbm, ⟨96, _⟩ => ⟨S_, .f32⟩
  | .hbm, ⟨97, _⟩ => ⟨S50000x1, .f32⟩
  | .hbm, ⟨98, _⟩ => ⟨S800000x1, .i32⟩
  | .hbm, ⟨99, _⟩ => ⟨S50000x1, .f32⟩
  | .hbm, ⟨100, _⟩ => ⟨S_, .f32⟩
  | .hbm, ⟨101, _⟩ => ⟨S50000x1, .f32⟩
  | .hbm, ⟨102, _⟩ => ⟨S50000x1, .f32⟩
  | .hbm, ⟨103, _⟩ => ⟨S50000x256, .f32⟩
  | .hbm, ⟨104, _⟩ => ⟨S50000x256, .f32⟩
  | .hbm, ⟨105, _⟩ => ⟨S50000x64, .f32⟩
  | .hbm, ⟨106, _⟩ => ⟨S50000x64, .f32⟩
  | .hbm, ⟨107, _⟩ => ⟨S50000x64, .f32⟩
  | .hbm, ⟨108, _⟩ => ⟨S1x64, .f32⟩
  | .hbm, ⟨109, _⟩ => ⟨S50000x64, .f32⟩
  | .hbm, ⟨110, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_c_10 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000x1_S800000x1_S800000x1_1_0_0_1_wf : ScatterDims.WF S50000x1 S800000x1 S800000x1 [1] [0] [0] 1
  dot_S50000x256_S256x256_S50000x256_1_0_0_1_n_n_wf : DotDims.WF S50000x256 S256x256 S50000x256 [1] [0] [0] [1] [] []
  dot_S50000x256_S256x64_S50000x64_1_0_0_1_n_n_wf : DotDims.WF S50000x256 S256x64 S50000x64 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.KernelIdealRun.lean ====
/-
  The idealized kernel's run, with its final memory read.  @main is six segments: three stretches of host operations
  (slicing the edge array, the degrees, and per layer the gather of source rows, their sum per destination and the
  division by the degree), each followed by one launch of the dense-layer kernel over 25 blocks of 2000 rows.  The
  buffer contents at the seven segment boundaries form a fold from the launch memory: `W0` the launch contents,
  `W1`, `W3`, `W5` a stretch's operations applied to the boundary before, `W2`, `W4`, `W6` a launch's arrays at what
  its write-backs leave and every other buffer as it was.  Every weakly fair execution terminates in a memory that
  holds `W6` at every buffer that outlives the launches (`run_read`); in particular the result buffer holds `W6`'s
  contents of it and every argument holds what it was launched with (`run_result`).
-/
import proofs.«134186_j87600152969646_1_alg».proof.Proof.KernelIdealFrame

noncomputable section

namespace Cert.KernelIdeal.RunRead

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a final memory is known to hold on core `c`: every buffer that outlives the launches at the last
    boundary's contents. -/
def AtEnd (c : Dev nD) (s : MemSt nD τ sig (Elt F)) : Prop :=
  ∀ b ∈ Pipeline.ucRefs τ sig, s.mem (((c : Thread nD τ)).1, b) = W6 m ρ c b

set_option backward.isDefEq.respectTransparency.types false in
/-- Every weakly fair execution of @main terminates, nothing faulting, and any property `Q` of the final memory that
    follows from "every lasting buffer holds `W6`" holds of it.  The launch deals each core its buffers at the launch
    contents `W0`, its generator register and an empty debt (`hinit`); each segment's closing state is the next one's
    opening state by construction (`hch`); the last state is read against the final memory buffer by buffer (`hfin`). -/
theorem run_read {Q : PUnit × MemSt nD τ sig (Elt F) → Prop}
    (hQ : ∀ s : MemSt nD τ sig (Elt F), (∀ c : Dev nD, AtEnd m ρ c s) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have own_eq : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      have emps : (BI.emp : sProp 𝕄) ⊢ bigSep Finset.univ (fun _ : Dev nD => (BI.emp : sProp 𝕄)) := by
        rw [BI.bigSep_emp_const]
      iintro Hu
      imodintro
      isplitl [Hu]
      · iapply own_eq; iexact Hu
      · iapply emps; iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Hdebt, -, Hprng, -⟩, -⟩
      imodintro
      isplitl [Hbufs]; · iexact Hbufs
      isplitl [Hprng]; · iexists _; iexact Hprng
      iexists ∅; iexact Hdebt)
    (QY := AtEnd m ρ)
    (hfin := fun c s' => by
      unfold AtEnd
      iintro ⟨⟨Hbufs, -⟩, Hstate⟩
      unfold StableHlo.held
      imodintro
      iapply (pointsTo_read_all (Pipeline.ucRefs τ sig) (fun b => (((c : Thread nD τ)).1, b)) (W6 m ρ c) s')
      isplitl [Hbufs] <;> iassumption)
    (hQ := hQ)

/-- The run with the result buffer read: it ends holding the last boundary's contents at `main_v51`, and every
    argument as launched (no host operation and no launch writes an argument). -/
theorem run_result : θ_run defs (onTc (τ := τ) (main (F := F))) ⟨m, fun _ => 0, ρ⟩ (fun r => ∀ c : Dev nD,
      r.2.mem ((c.tc : Thread nD τ).loc main_v51) = W6 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_read m ρ (fun s h c =>
    ⟨h c _ (mem_uc main_v51 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c)⟩)

end Cert.KernelIdeal.RunRead

end
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.LibSageLayer.lean ====
/-
  One dense layer of a neighbourhood-mean graph network, read entry by entry on the extended reals, generic in the
  row count `R`, the input width `K` and the output width `O`.  With `A` the averaged neighbour features and `H`
  the node's own features, entry `(p, q)` of `A · Wl + H · Wr + b` is
      (∑ₖ A (p, k) · Wl (k, q)) + (∑ₖ H (p, k) · Wr (k, q)) + b q,
  a function of row `p` of `A` and of `H` only.
  * `sageEntry`: that entry, from the two rows;
  * `kernel_sum_apply`: the vector-unit spelling (both operands of each product rounded to bfloat16, which is the
    identity on the extended reals; each product into a zero accumulator; the bias held as one row and repeated down
    the rows) is `sageEntry`;
  * `host_sum_apply`: the host spelling (two `dot_general`s, the bias broadcast to a row and then down the rows) is
    the same `sageEntry`;
  * `kernel_floor_apply`, `host_floor_apply`: the floor at zero, as the maximum with a zero splat and with a
    broadcast zero constant.
  Both spellings are the same sums of the same products in the same order of additions, so nothing here needs a
  finite operand.
-/
import Idealize.ShloMosaic.Lib.ValueIdx
import Idealize.ShloMosaic.Lib.ValueLayout
import Idealize.ShloMosaic.Lib.Pipeline.Value
import Idealize.ShloMosaic.PureOps.Ideal.Laws
import proofs.«134186_j87600152969646_1_alg».proof.Proof.LibMlpRows

noncomputable section

namespace Cert.LibSage

open Idealize.ShloMosaic Idealize.ShloMosaic.ValueIdx Cert.LibMlp
open scoped BigOperators

/-- Entry `q` of one row of `A · Wl + H · Wr + b`: the neighbour row's product with column `q` of `Wl`, plus the
    node's own row's product with column `q` of `Wr`, plus the bias of column `q`. -/
def sageEntry {K O : ℕ} (rowA rowH : Fin K → EReal) (wl wr : (⟨2, ![K, O]⟩ : Shape).Idx → EReal) (bq : EReal) (q : Fin O) : EReal :=
  ((∑ k : Fin K, rowA k * wl (ix2 k q)) + (∑ k : Fin K, rowH k * wr (ix2 k q))) + bq

/-- The vector-unit spelling at an entry: each product into the zero accumulator is the plain sum over the contracted
    coordinate, rounding an operand to bfloat16 changes no extended real, and the bias row repeated down the rows
    reads its own column. -/
theorem kernel_sum_apply {R K O : ℕ} (d : DotDims ⟨2, ![R, K]⟩ ⟨2, ![K, O]⟩ ⟨2, ![R, O]⟩) (hd : d = DotDims.plain R K O)
    (a h : FVec Ideal ⟨2, ![R, K]⟩ .f32) (wl wr : FVec Ideal ⟨2, ![K, O]⟩ .f32) (b1 : FVec Ideal ⟨2, ![1, O]⟩ .f32)
    (hB : (⟨2, ![1, O]⟩ : Shape).Broadcasts ⟨2, ![R, O]⟩) (ht : FTy.bf16.bits < FTy.f32.bits) (p : Fin R) (q : Fin O) :
    addf (addf (matmul d none (truncf .bf16 a ht) (truncf .bf16 wl ht) (constant ⟨2, ![R, O]⟩ .f32 0x00000000#32))
               (matmul d none (truncf .bf16 h ht) (truncf .bf16 wr ht) (constant ⟨2, ![R, O]⟩ .f32 0x00000000#32)))
         (broadcastTo ⟨2, ![R, O]⟩ b1 hB) (ix2 p q)
      = sageEntry (fun k => a (ix2 p k)) (fun k => h (ix2 p k)) wl wr (b1 (ix2 (0 : Fin 1) q)) q := by
  subst hd
  simp only [sageEntry, matmul, addf_apply, truncf_apply, matmul_zero_plain, broadcastTo_1b_ab_apply]

/-- The host spelling at an entry: each `dot_general` is the same plain sum, and the bias broadcast to one row and
    then down the rows reads its own column. -/
theorem host_sum_apply {R K O : ℕ} (d : DotDims ⟨2, ![R, K]⟩ ⟨2, ![K, O]⟩ ⟨2, ![R, O]⟩) (hd : d = DotDims.plain R K O)
    (a h : FVec Ideal ⟨2, ![R, K]⟩ .f32) (wl wr : FVec Ideal ⟨2, ![K, O]⟩ .f32) (b : FVec Ideal ⟨1, ![O]⟩ .f32)
    (hb : (⟨1, ![O]⟩ : Shape).BroadcastsInDim ⟨2, ![1, O]⟩ ![1]) (hB : (⟨2, ![1, O]⟩ : Shape).BroadcastsInDim ⟨2, ![R, O]⟩ ![0, 1])
    (p : Fin R) (q : Fin O) :
    addf (addf (Host.dotGeneral d none a wl) (Host.dotGeneral d none h wr))
         (broadcastInDim ⟨2, ![R, O]⟩ ![0, 1] hB (broadcastInDim ⟨2, ![1, O]⟩ ![1] hb b)) (ix2 p q)
      = sageEntry (fun k => a (ix2 p k)) (fun k => h (ix2 p k)) wl wr (b (ix1 q)) q := by
  subst hd
  have bias : broadcastInDim ⟨2, ![R, O]⟩ ![0, 1] hB (broadcastInDim ⟨2, ![1, O]⟩ ![1] hb b) (ix2 p q) = b (ix1 q) := by
    rw [broadcastInDim_apply ![0, 1] hB _ (ix2 p q) (ix2 (0 : Fin 1) q) (fun a => by
      match a with
      | ⟨0, _⟩ => rfl
      | ⟨1, _⟩ => show q.val = if O = 1 then 0 else q.val; split <;> [(have := q.isLt; omega); rfl])]
    exact broadcastInDim_apply ![1] hb _ (ix2 (0 : Fin 1) q) (ix1 q) (fun a => by
      match a with
      | ⟨0, _⟩ => show q.val = if O = 1 then 0 else q.val; split <;> [(have := q.isLt; omega); rfl])
  simp only [sageEntry, Host.dotGeneral, addf_apply, dotGeneral_plain, bias]

/-- The floor at zero as the vector unit spells it: the maximum with a splat of the zero word. -/
theorem kernel_floor_apply {s : Shape} (x : FVec Ideal s .f32) (i : s.Idx) :
    maximumf x (broadcast s (Scalar.ofBits (F := Ideal) .f32 0x00000000#32)) i = max (x i) (Ideal.ofBits .f32 0x00000000#32) := rfl

/-- The floor at zero as the host spells it: the maximum with the zero constant broadcast to the whole shape. -/
theorem host_floor_apply {s : Shape} (x : FVec Ideal s .f32) (hz : (⟨0, ![]⟩ : Shape).BroadcastsInDim s ![]) (i : s.Idx) :
    maximumf x (broadcastInDim s ![] hz (constant (F := Ideal) ⟨0, ![]⟩ .f32 0x00000000#32)) i = max (x i) (Ideal.ofBits .f32 0x00000000#32) := by
  rw [maximumf_apply, broadcastInDim_apply ![] hz _ i ix0 (fun a => a.elim0)]
  rfl

end Cert.LibSage

end
-- ==== Proof.RefLayers.lean ====
/-
  The reference, layer by layer.  Its three layers have one shape each: a neighbourhood mean of the current features
  (gather the source rows, add them up per destination, divide by the destination's degree floored at one) followed by
  the dense half `mean · Wl + features · Wr + b`, floored at zero in the first two layers.  Here the host's spelling of
  the mean (`hostMean`) and of the dense half (`hostLayerRelu`, `hostLayerOut`) are named as functions of their
  operands, the reference's stages are shown to be compositions of them (they are the same operations in the same
  order, so each equation is by unfolding), and each dense half is read at an entry as `sageEntry` of the two rows.
-/
import proofs.«134186_j87600152969646_1_alg».proof.Proof.Gen.ReferenceIdeal.Read
import proofs.«134186_j87600152969646_1_alg».proof.Proof.LibSageLayer

noncomputable section

namespace Cert.ReferenceIdeal.Layers

open Cert.ReferenceIdeal Cert.ReferenceIdeal.Gen Cert.ReferenceIdeal.Read Idealize.ShloMosaic Idealize.ShloMosaic.ValueIdx Cert.LibSage

theorem dot256_plain : dot_S50000x256_S256x256_S50000x256_1_0_0_1_n_n = DotDims.plain 50000 256 256 := rfl
theorem dot64_plain : dot_S50000x256_S256x64_S50000x64_1_0_0_1_n_n = DotDims.plain 50000 256 64 := rfl

/-- The mean over each node's incoming edges of the rows of `H`: row `v` is the sum of `H`'s rows at the sources of
    the edges into `v`, divided by `max (number of such edges) 1`.  `e` is the 2 × E edge array (sources, then
    destinations; a negative source counts from the end). -/
def hostMean (e : (⟨S2x800000, .i32⟩ : BufTy).Contents (Elt Ideal)) (H : FVec Ideal S50000x256 .f32) : FVec Ideal S50000x256 .f32 :=
  Host.divf (Host.scatterAdd scatter_S50000x256_S800000x1_S800000x256_1_0_0_1 (val_main_v11 (F := Ideal)) (val_main_v12 (F := Ideal) e)
      (Host.gather gather_S50000x256_S800000x1_S800000x256_1_0_n_n_0_1_1256 H (val_main_v9 (F := Ideal) e)))
    (val_main_v20 (F := Ideal) e)

/-- The dense half of a hidden layer as the host spells it: `max (A · Wl + H · Wr + b) 0`. -/
def hostLayerRelu (A H : FVec Ideal S50000x256 .f32) (Wl Wr : FVec Ideal S256x256 .f32) (b : FVec Ideal S256 .f32) : FVec Ideal S50000x256 .f32 :=
  maximumf (addf (addf (Host.dotGeneral dot_S50000x256_S256x256_S50000x256_1_0_0_1_n_n none A Wl)
        (Host.dotGeneral dot_S50000x256_S256x256_S50000x256_1_0_0_1_n_n none H Wr))
      (broadcastInDim S50000x256 ![0, 1] bcast_S1x256_S50000x256_0_1 (broadcastInDim S1x256 ![1] bcast_S256_S1x256_1 b)))
    (broadcastInDim S50000x256 ![] bcast_S_S50000x256 (constant (F := Ideal) S_ .f32 0x00000000#32))

/-- The dense half of the last layer as the host spells it: `A · Wl + H · Wr + b`, 64 columns wide. -/
def hostLayerOut (A H : FVec Ideal S50000x256 .f32) (Wl Wr : FVec Ideal S256x64 .f32) (b : FVec Ideal S64 .f32) : FVec Ideal S50000x64 .f32 :=
  addf (addf (Host.dotGeneral dot_S50000x256_S256x64_S50000x64_1_0_0_1_n_n none A Wl)
      (Host.dotGeneral dot_S50000x256_S256x64_S50000x64_1_0_0_1_n_n none H Wr))
    (broadcastInDim S50000x64 ![0, 1] bcast_S1x64_S50000x64_0_1 (broadcastInDim S1x64 ![1] bcast_S64_S1x64_1 b))

section Stages
variable (x0 : FVec Ideal S50000x256 .f32) (x1 : (⟨S2x800000, .i32⟩ : BufTy).Contents (Elt Ideal)) (x2 x3 : FVec Ideal S256x256 .f32) (x4 : FVec Ideal S256 .f32)
  (x5 x6 : FVec Ideal S256x256 .f32) (x7 : FVec Ideal S256 .f32) (x8 x9 : FVec Ideal S256x64 .f32) (x10 : FVec Ideal S64 .f32)

/-- The features after the first layer. -/
def h1 : FVec Ideal S50000x256 .f32 := hostLayerRelu (hostMean x1 x0) x0 x2 x3 x4
/-- The features after the second layer. -/
def h2 : FVec Ideal S50000x256 .f32 := hostLayerRelu (hostMean x1 (h1 x0 x1 x2 x3 x4)) (h1 x0 x1 x2 x3 x4) x5 x6 x7
/-- The network's output. -/
def out : FVec Ideal S50000x64 .f32 := hostLayerOut (hostMean x1 (h2 x0 x1 x2 x3 x4 x5 x6 x7)) (h2 x0 x1 x2 x3 x4 x5 x6 x7) x8 x9 x10

/-- The reference's first floored stage is the first layer: the same operations in the same order. -/
theorem v28_eq : val_main_v28 (F := Ideal) x0 x1 x2 x3 x4 = h1 x0 x1 x2 x3 x4 := rfl
/-- Its second floored stage is the second layer; the degrees are computed again from the same edge array. -/
theorem v53_eq : val_main_v53 (F := Ideal) x0 x1 x2 x3 x4 x5 x6 x7 = h2 x0 x1 x2 x3 x4 x5 x6 x7 := rfl
/-- Its result is the third layer. -/
theorem v77_eq : val_main_v77 (F := Ideal) x0 x1 x2 x3 x4 x5 x6 x7 x8 x9 x10 = out x0 x1 x2 x3 x4 x5 x6 x7 x8 x9 x10 := rfl

end Stages

/-- A hidden layer's dense half at an entry: the two rows' products with the weight columns, plus the bias, floored at zero. -/
theorem hostLayerRelu_apply (A H : FVec Ideal S50000x256 .f32) (Wl Wr : FVec Ideal S256x256 .f32) (b : FVec Ideal S256 .f32)
    (p : Fin 50000) (q : Fin 256) :
    hostLayerRelu A H Wl Wr b (ix2 p q)
      = max (sageEntry (fun k => A (ix2 p k)) (fun k => H (ix2 p k)) Wl Wr (b (ix1 q)) q) (Ideal.ofBits .f32 0x00000000#32) := by
  unfold hostLayerRelu
  rw [host_floor_apply, host_sum_apply _ dot256_plain]

/-- The last layer's dense half at an entry. -/
theorem hostLayerOut_apply (A H : FVec Ideal S50000x256 .f32) (Wl Wr : FVec Ideal S256x64 .f32) (b : FVec Ideal S64 .f32)
    (p : Fin 50000) (q : Fin 64) :
    hostLayerOut A H Wl Wr b (ix2 p q) = sageEntry (fun k => A (ix2 p k)) (fun k => H (ix2 p k)) Wl Wr (b (ix1 q)) q := by
  unfold hostLayerOut
  rw [host_sum_apply _ dot64_plain]

end Cert.ReferenceIdeal.Layers

end
-- ==== Proof.KernelRegion0.lean ====
/-
  Launch 0 of the dense-layer kernel: what it leaves in its output array.  The grid has 25 points; point `t` stages
  rows `2000·t … 2000·t + 1999` of the averaged neighbour features and of the node features, the two weight matrices
  and the bias row whole, and writes back rows `2000·t …` of the output.  The body's stored value at `(p, q)` of the
  block is `sageEntry` of row `p` of the two staged blocks, floored at zero (`pay_apply`); row `p` of block `t` is row
  `2000·t + p` of the array, and the weights and the bias are read whole, so what point `t` writes back is block `t`
  of the host's spelling of the layer applied to the arrays as the launch finds them (`flushed_eq`).  The 25 blocks
  tile the 50000 rows (`cover`), hence the whole output array is that layer (`array_eq`).
-/
import proofs.«134186_j87600152969646_1_alg».proof.Proof.KernelIdealFrame
import proofs.«134186_j87600152969646_1_alg».proof.Proof.RefLayers

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)
open Cert.LibSage Cert.ReferenceIdeal.Layers

theorem zero_offsets : (![0, 0] : Fin 2 → Nat) = fun _ => 0 := funext fun a => by fin_cases a <;> rfl

theorem dot_plain : dot_S2000x256_S256x256_S2000x256_1_0_0_1_n_n = DotDims.plain 2000 256 256 := rfl

/-- The body's stored value at an entry of the block, from the staged blocks. -/
theorem pay_apply (x0 x1 : Vec Ideal S2000x256 .f32) (x2 x3 : Vec Ideal S256x256 .f32) (x4 : Vec Ideal S1x256 .f32) (p : Fin 2000) (q : Fin 256) :
    k0_pay1 x0 x1 x2 x3 x4 (ix2 p q)
      = max (sageEntry (fun k => x0 (ix2 p k)) (fun k => x1 (ix2 p k)) x2 x3 (x4 (ix2 (0 : Fin 1) q)) q) (Ideal.ofBits .f32 0x00000000#32) := by
  unfold k0_pay1
  simp only [shapeCast_self]
  rw [kernel_floor_apply, kernel_sum_apply _ dot_plain]

/-- The printed index maps, decided over the 25 grid points: the two row-blocked inputs move with the output, the
    weights and the bias stay at block (0, 0), and the output's block row is below 25. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 24 ∧ win0_5.index t (1 : Fin 2) = 0 :=
  (by decide +kernel : ∀ t : Fin grid0.N, _)

/-- Every block row of the output is some point's. -/
theorem idx_onto : ∀ q0 : Fin 25, ∃ t : Fin cfg0.N, win0_5.index t = ![q0.val, 0] :=
  (by decide +kernel : ∀ q0 : Fin 25, ∃ t : Fin grid0.N, win0_5.index t = ![q0.val, 0])

/-- Row `p` of block row `b`, as a row of the array. -/
def rowOf (b : ℕ) (hb : b ≤ 24) (p : Fin 2000) : Fin 50000 := ⟨b * 2000 + p.val, by have := p.isLt; omega⟩

variable (V : (c : Dev nD) → (b : Ref sig .tc) → Buf (Elt Ideal) ((c : Thread nD τ).loc b))

set_option maxHeartbeats 1000000 in
/-- WHAT POINT `t` WRITES BACK is block `t` of the layer of the arrays as the launch finds them; `bias` is the
    vector the staged bias row holds. -/
theorem flushed_eq (c : Dev nD) (t : Fin cfg0.N) (bias : FVec Ideal Cert.ReferenceIdeal.S256 .f32)
    (hbias : ∀ q : Fin 256, (V c (Pipeline.arrRef spec0 4) : S1x256.Idx → EReal) (ix2 (0 : Fin 1) q) = bias (ix1 q)) :
    (dat0 V c).flushed 5 t = ((cfg0.win 5).blk t).view.read (Elt Ideal)
      (hostLayerRelu (V c (Pipeline.arrRef spec0 0)) (V c (Pipeline.arrRef spec0 1)) (V c (Pipeline.arrRef spec0 2)) (V c (Pipeline.arrRef spec0 3)) bias) := by
  show (cfg0.win 5).cut (grid0.coords t) ((dat0 V c).after 5 t) = _
  rw [after0_5]
  unfold out0_5
  rw [View.canon_unit_zero zero_offsets]
  simp only [View.ld_unit_zero (S := S2000x256) zero_offsets, View.ld_unit_zero (S := S256x256) zero_offsets, View.ld_unit_zero (S := S1x256) zero_offsets]
  obtain ⟨e00, e01, e10, e11, e20, e21, e30, e31, e40, e41, e5b, e51⟩ := idx_facts t
  funext j
  obtain ⟨p, q, rfl⟩ : ∃ (p : Fin 2000) (q : Fin 256), j = ix2 p q := ⟨j 0, j 1, eq_ix2 j⟩
  refine (pay_apply (iblk0 V c 0 t) (iblk0 V c 1 t) (iblk0 V c 2 t) (iblk0 V c 3 t) (iblk0 V c 4 t) p q).trans ?_
  have hout : ((cfg0.win 5).blk t).view.emb (ix2 p q) = ix2 (rowOf (win0_5.index t (0 : Fin 2)) e5b p) q := by
    funext a; apply Fin.ext
    match a with
    | ⟨0, _⟩ => show win0_5.index t (0 : Fin 2) * 2000 + 1 * p.val = win0_5.index t (0 : Fin 2) * 2000 + p.val; omega
    | ⟨1, _⟩ => show win0_5.index t (1 : Fin 2) * 256 + 1 * q.val = q.val; omega
  rw [View.read_apply, hout, hostLayerRelu_apply]
  have h0 : ∀ k : Fin 256, iblk0 V c 0 t (ix2 p k) = V c (Pipeline.arrRef spec0 0) (ix2 (rowOf (win0_5.index t (0 : Fin 2)) e5b p) k) := fun k =>
    congrArg (V c (Pipeline.arrRef spec0 0)) (by
      funext a; apply Fin.ext
      match a with
      | ⟨0, _⟩ => show win0_0.index t (0 : Fin 2) * 2000 + 1 * p.val = win0_5.index t (0 : Fin 2) * 2000 + p.val; omega
      | ⟨1, _⟩ => show win0_0.index t (1 : Fin 2) * 256 + 1 * k.val = k.val; omega)
  have h1 : ∀ k : Fin 256, iblk0 V c 1 t (ix2 p k) = V c (Pipeline.arrRef spec0 1) (ix2 (rowOf (win0_5.index t (0 : Fin 2)) e5b p) k) := fun k =>
    congrArg (V c (Pipeline.arrRef spec0 1)) (by
      funext a; apply Fin.ext
      match a with
      | ⟨0, _⟩ => show win0_1.index t (0 : Fin 2) * 2000 + 1 * p.val = win0_5.index t (0 : Fin 2) * 2000 + p.val; omega
      | ⟨1, _⟩ => show win0_1.index t (1 : Fin 2) * 256 + 1 * k.val = k.val; omega)
  have h2 : (iblk0 V c 2 t : S256x256.Idx → EReal) = V c (Pipeline.arrRef spec0 2) := funext fun y =>
    congrArg (V c (Pipeline.arrRef spec0 2)) (by
      funext a; apply Fin.ext
      match a with
      | ⟨0, _⟩ => show win0_2.index t (0 : Fin 2) * 256 + 1 * (y 0).val = (y 0).val; omega
      | ⟨1, _⟩ => show win0_2.index t (1 : Fin 2) * 256 + 1 * (y 1).val = (y 1).val; omega)
  have h3 : (iblk0 V c 3 t : S256x256.Idx → EReal) = V c (Pipeline.arrRef spec0 3) := funext fun y =>
    congrArg (V c (Pipeline.arrRef spec0 3)) (by
      funext a; apply Fin.ext
      match a with
      | ⟨0, _⟩ => show win0_3.index t (0 : Fin 2) * 256 + 1 * (y 0).val = (y 0).val; omega
      | ⟨1, _⟩ => show win0_3.index t (1 : Fin 2) * 256 + 1 * (y 1).val = (y 1).val; omega)
  have h4 : iblk0 V c 4 t (ix2 (0 : Fin 1) q) = bias (ix1 q) := (congrArg (V c (Pipeline.arrRef spec0 4)) (by
      funext a; apply Fin.ext
      match a with
      | ⟨0, _⟩ => show win0_4.index t (0 : Fin 2) * 1 + 1 * 0 = 0; omega
      | ⟨1, _⟩ => show win0_4.index t (1 : Fin 2) * 256 + 1 * q.val = q.val; omega)).trans (hbias q)
  simp only [h0, h1, h2, h3, h4]
  exact (cast_eq _ _).symm

/-- The 25 blocks of 2000 rows tile the 50000 rows: row `r` lies in the block of the point whose block row is `r / 2000`. -/
theorem cover (c : Dev nD) (i : ((cfg0.win 5).arr.view.loc (c.tc : Thread nD τ)).2.ty.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  show i ∈ ((View.whole main_v23).slice (win0_5.rect t)).set
  rw [View.set_slice_whole, Rect.mem_set_unit]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- THE OUTPUT ARRAY after the launch is the layer of the arrays as the launch finds them. -/
theorem array_eq (c : Dev nD) (bias : FVec Ideal Cert.ReferenceIdeal.S256 .f32)
    (hbias : ∀ q : Fin 256, (V c (Pipeline.arrRef spec0 4) : S1x256.Idx → EReal) (ix2 (0 : Fin 1) q) = bias (ix1 q)) :
    (dat0 V c).arrAt 5 cfg0.N
      = hostLayerRelu (V c (Pipeline.arrRef spec0 0)) (V c (Pipeline.arrRef spec0 1)) (V c (Pipeline.arrRef spec0 2)) (V c (Pipeline.arrRef spec0 3)) bias :=
  (dat0 V c).arrAt_eq_of_cover 5 _ (fun t _ => flushed_eq V c t bias hbias) (cover c)

end Cert.KernelIdeal.Region0

end
-- ==== Proof.KernelRegion1.lean ====
/-
  Launch 1 of the dense-layer kernel: what it leaves in its output array.  The grid has 25 points; point `t` stages
  rows `2000·t … 2000·t + 1999` of the averaged neighbour features and of the node features, the two weight matrices
  and the bias row whole, and writes back rows `2000·t …` of the output.  The body's stored value at `(p, q)` of the
  block is `sageEntry` of row `p` of the two staged blocks, floored at zero (`pay_apply`); row `p` of block `t` is row
  `2000·t + p` of the array, and the weights and the bias are read whole, so what point `t` writes back is block `t`
  of the host's spelling of the layer applied to the arrays as the launch finds them (`flushed_eq`).  The 25 blocks
  tile the 50000 rows (`cover`), hence the whole output array is that layer (`array_eq`).
-/
import proofs.«134186_j87600152969646_1_alg».proof.Proof.KernelIdealFrame
import proofs.«134186_j87600152969646_1_alg».proof.Proof.RefLayers

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)
open Cert.LibSage Cert.ReferenceIdeal.Layers

theorem zero_offsets : (![0, 0] : Fin 2 → Nat) = fun _ => 0 := funext fun a => by fin_cases a <;> rfl

theorem dot_plain : dot_S2000x256_S256x256_S2000x256_1_0_0_1_n_n = DotDims.plain 2000 256 256 := rfl

/-- The body's stored value at an entry of the block, from the staged blocks. -/
theorem pay_apply (x0 x1 : Vec Ideal S2000x256 .f32) (x2 x3 : Vec Ideal S256x256 .f32) (x4 : Vec Ideal S1x256 .f32) (p : Fin 2000) (q : Fin 256) :
    k1_pay1 x0 x1 x2 x3 x4 (ix2 p q)
      = max (sageEntry (fun k => x0 (ix2 p k)) (fun k => x1 (ix2 p k)) x2 x3 (x4 (ix2 (0 : Fin 1) q)) q) (Ideal.ofBits .f32 0x00000000#32) := by
  unfold k1_pay1
  simp only [shapeCast_self]
  rw [kernel_floor_apply, kernel_sum_apply _ dot_plain]

/-- The printed index maps, decided over the 25 grid points: the two row-blocked inputs move with the output, the
    weights and the bias stay at block (0, 0), and the output's block row is below 25. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 24 ∧ win1_5.index t (1 : Fin 2) = 0 :=
  (by decide +kernel : ∀ t : Fin grid1.N, _)

/-- Every block row of the output is some point's. -/
theorem idx_onto : ∀ q0 : Fin 25, ∃ t : Fin cfg1.N, win1_5.index t = ![q0.val, 0] :=
  (by decide +kernel : ∀ q0 : Fin 25, ∃ t : Fin grid1.N, win1_5.index t = ![q0.val, 0])

/-- Row `p` of block row `b`, as a row of the array. -/
def rowOf (b : ℕ) (hb : b ≤ 24) (p : Fin 2000) : Fin 50000 := ⟨b * 2000 + p.val, by have := p.isLt; omega⟩

variable (V : (c : Dev nD) → (b : Ref sig .tc) → Buf (Elt Ideal) ((c : Thread nD τ).loc b))

set_option maxHeartbeats 1000000 in
/-- WHAT POINT `t` WRITES BACK is block `t` of the layer of the arrays as the launch finds them; `bias` is the
    vector the staged bias row holds. -/
theorem flushed_eq (c : Dev nD) (t : Fin cfg1.N) (bias : FVec Ideal Cert.ReferenceIdeal.S256 .f32)
    (hbias : ∀ q : Fin 256, (V c (Pipeline.arrRef spec1 4) : S1x256.Idx → EReal) (ix2 (0 : Fin 1) q) = bias (ix1 q)) :
    (dat1 V c).flushed 5 t = ((cfg1.win 5).blk t).view.read (Elt Ideal)
      (hostLayerRelu (V c (Pipeline.arrRef spec1 0)) (V c (Pipeline.arrRef spec1 1)) (V c (Pipeline.arrRef spec1 2)) (V c (Pipeline.arrRef spec1 3)) bias) := by
  show (cfg1.win 5).cut (grid1.coords t) ((dat1 V c).after 5 t) = _
  rw [after1_5]
  unfold out1_5
  rw [View.canon_unit_zero zero_offsets]
  simp only [View.ld_unit_zero (S := S2000x256) zero_offsets, View.ld_unit_zero (S := S256x256) zero_offsets, View.ld_unit_zero (S := S1x256) zero_offsets]
  obtain ⟨e00, e01, e10, e11, e20, e21, e30, e31, e40, e41, e5b, e51⟩ := idx_facts t
  funext j
  obtain ⟨p, q, rfl⟩ : ∃ (p : Fin 2000) (q : Fin 256), j = ix2 p q := ⟨j 0, j 1, eq_ix2 j⟩
  refine (pay_apply (iblk1 V c 0 t) (iblk1 V c 1 t) (iblk1 V c 2 t) (iblk1 V c 3 t) (iblk1 V c 4 t) p q).trans ?_
  have hout : ((cfg1.win 5).blk t).view.emb (ix2 p q) = ix2 (rowOf (win1_5.index t (0 : Fin 2)) e5b p) q := by
    funext a; apply Fin.ext
    match a with
    | ⟨0, _⟩ => show win1_5.index t (0 : Fin 2) * 2000 + 1 * p.val = win1_5.index t (0 : Fin 2) * 2000 + p.val; omega
    | ⟨1, _⟩ => show win1_5.index t (1 : Fin 2) * 256 + 1 * q.val = q.val; omega
  rw [View.read_apply, hout, hostLayerRelu_apply]
  have h0 : ∀ k : Fin 256, iblk1 V c 0 t (ix2 p k) = V c (Pipeline.arrRef spec1 0) (ix2 (rowOf (win1_5.index t (0 : Fin 2)) e5b p) k) := fun k =>
    congrArg (V c (Pipeline.arrRef spec1 0)) (by
      funext a; apply Fin.ext
      match a with
      | ⟨0, _⟩ => show win1_0.index t (0 : Fin 2) * 2000 + 1 * p.val = win1_5.index t (0 : Fin 2) * 2000 + p.val; omega
      | ⟨1, _⟩ => show win1_0.index t (1 : Fin 2) * 256 + 1 * k.val = k.val; omega)
  have h1 : ∀ k : Fin 256, iblk1 V c 1 t (ix2 p k) = V c (Pipeline.arrRef spec1 1) (ix2 (rowOf (win1_5.index t (0 : Fin 2)) e5b p) k) := fun k =>
    congrArg (V c (Pipeline.arrRef spec1 1)) (by
      funext a; apply Fin.ext
      match a with
      | ⟨0, _⟩ => show win1_1.index t (0 : Fin 2) * 2000 + 1 * p.val = win1_5.index t (0 : Fin 2) * 2000 + p.val; omega
      | ⟨1, _⟩ => show win1_1.index t (1 : Fin 2) * 256 + 1 * k.val = k.val; omega)
  have h2 : (iblk1 V c 2 t : S256x256.Idx → EReal) = V c (Pipeline.arrRef spec1 2) := funext fun y =>
    congrArg (V c (Pipeline.arrRef spec1 2)) (by
      funext a; apply Fin.ext
      match a with
      | ⟨0, _⟩ => show win1_2.index t (0 : Fin 2) * 256 + 1 * (y 0).val = (y 0).val; omega
      | ⟨1, _⟩ => show win1_2.index t (1 : Fin 2) * 256 + 1 * (y 1).val = (y 1).val; omega)
  have h3 : (iblk1 V c 3 t : S256x256.Idx → EReal) = V c (Pipeline.arrRef spec1 3) := funext fun y =>
    congrArg (V c (Pipeline.arrRef spec1 3)) (by
      funext a; apply Fin.ext
      match a with
      | ⟨0, _⟩ => show win1_3.index t (0 : Fin 2) * 256 + 1 * (y 0).val = (y 0).val; omega
      | ⟨1, _⟩ => show win1_3.index t (1 : Fin 2) * 256 + 1 * (y 1).val = (y 1).val; omega)
  have h4 : iblk1 V c 4 t (ix2 (0 : Fin 1) q) = bias (ix1 q) := (congrArg (V c (Pipeline.arrRef spec1 4)) (by
      funext a; apply Fin.ext
      match a with
      | ⟨0, _⟩ => show win1_4.index t (0 : Fin 2) * 1 + 1 * 0 = 0; omega
      | ⟨1, _⟩ => show win1_4.index t (1 : Fin 2) * 256 + 1 * q.val = q.val; omega)).trans (hbias q)
  simp only [h0, h1, h2, h3, h4]
  exact (cast_eq _ _).symm

/-- The 25 blocks of 2000 rows tile the 50000 rows: row `r` lies in the block of the point whose block row is `r / 2000`. -/
theorem cover (c : Dev nD) (i : ((cfg1.win 5).arr.view.loc (c.tc : Thread nD τ)).2.ty.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, ht⟩ := idx_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  show i ∈ ((View.whole main_v37).slice (win1_5.rect t)).set
  rw [View.set_slice_whole, Rect.mem_set_unit]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- THE OUTPUT ARRAY after the launch is the layer of the arrays as the launch finds them. -/
theorem array_eq (c : Dev nD) (bias : FVec Ideal Cert.ReferenceIdeal.S256 .f32)
    (hbias : ∀ q : Fin 256, (V c (Pipeline.arrRef spec1 4) : S1x256.Idx → EReal) (ix2 (0 : Fin 1) q) = bias (ix1 q)) :
    (dat1 V c).arrAt 5 cfg1.N
      = hostLayerRelu (V c (Pipeline.arrRef spec1 0)) (V c (Pipeline.arrRef spec1 1)) (V c (Pipeline.arrRef spec1 2)) (V c (Pipeline.arrRef spec1 3)) bias :=
  (dat1 V c).arrAt_eq_of_cover 5 _ (fun t _ => flushed_eq V c t bias hbias) (cover c)

end Cert.KernelIdeal.Region1

end
-- ==== Proof.KernelRegion2.lean ====
/-
  Launch 2 of the dense-layer kernel: what it leaves in its output array.  The grid has 25 points; point `t` stages
  rows `2000·t … 2000·t + 1999` of the averaged neighbour features and of the node features, the two weight matrices
  and the bias row whole, and writes back rows `2000·t …` of the output.  The body's stored value at `(p, q)` of the
  block is `sageEntry` of row `p` of the two staged blocks (`pay_apply`); row `p` of block `t` is row
  `2000·t + p` of the array, and the weights and the bias are read whole, so what point `t` writes back is block `t`
  of the host's spelling of the layer applied to the arrays as the launch finds them (`flushed_eq`).  The 25 blocks
  tile the 50000 rows (`cover`), hence the whole output array is that layer (`array_eq`).
-/
import proofs.«134186_j87600152969646_1_alg».proof.Proof.KernelIdealFrame
import proofs.«134186_j87600152969646_1_alg».proof.Proof.RefLayers

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat)
open Cert.LibSage Cert.ReferenceIdeal.Layers

theorem zero_offsets : (![0, 0] : Fin 2 → Nat) = fun _ => 0 := funext fun a => by fin_cases a <;> rfl

theorem dot_plain : dot_S2000x256_S256x64_S2000x64_1_0_0_1_n_n = DotDims.plain 2000 256 64 := rfl

/-- The body's stored value at an entry of the block, from the staged blocks. -/
theorem pay_apply (x0 x1 : Vec Ideal S2000x256 .f32) (x2 x3 : Vec Ideal S256x64 .f32) (x4 : Vec Ideal S1x64 .f32) (p : Fin 2000) (q : Fin 64) :
    k2_pay1 x0 x1 x2 x3 x4 (ix2 p q)
      = sageEntry (fun k => x0 (ix2 p k)) (fun k => x1 (ix2 p k)) x2 x3 (x4 (ix2 (0 : Fin 1) q)) q := by
  unfold k2_pay1
  simp only [shapeCast_self]
  rw [kernel_sum_apply _ dot_plain]

/-- The printed index maps, decided over the 25 grid points: the two row-blocked inputs move with the output, the
    weights and the bias stay at block (0, 0), and the output's block row is below 25. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 24 ∧ win2_5.index t (1 : Fin 2) = 0 :=
  (by decide +kernel : ∀ t : Fin grid2.N, _)

/-- Every block row of the output is some point's. -/
theorem idx_onto : ∀ q0 : Fin 25, ∃ t : Fin cfg2.N, win2_5.index t = ![q0.val, 0] :=
  (by decide +kernel : ∀ q0 : Fin 25, ∃ t : Fin grid2.N, win2_5.index t = ![q0.val, 0])

/-- Row `p` of block row `b`, as a row of the array. -/
def rowOf (b : ℕ) (hb : b ≤ 24) (p : Fin 2000) : Fin 50000 := ⟨b * 2000 + p.val, by have := p.isLt; omega⟩

variable (V : (c : Dev nD) → (b : Ref sig .tc) → Buf (Elt Ideal) ((c : Thread nD τ).loc b))

set_option maxHeartbeats 1000000 in
/-- WHAT POINT `t` WRITES BACK is block `t` of the layer of the arrays as the launch finds them; `bias` is the
    vector the staged bias row holds. -/
theorem flushed_eq (c : Dev nD) (t : Fin cfg2.N) (bias : FVec Ideal Cert.ReferenceIdeal.S64 .f32)
    (hbias : ∀ q : Fin 64, (V c (Pipeline.arrRef spec2 4) : S1x64.Idx → EReal) (ix2 (0 : Fin 1) q) = bias (ix1 q)) :
    (dat2 V c).flushed 5 t = ((cfg2.win 5).blk t).view.read (Elt Ideal)
      (hostLayerOut (V c (Pipeline.arrRef spec2 0)) (V c (Pipeline.arrRef spec2 1)) (V c (Pipeline.arrRef spec2 2)) (V c (Pipeline.arrRef spec2 3)) bias) := by
  show (cfg2.win 5).cut (grid2.coords t) ((dat2 V c).after 5 t) = _
  rw [after2_5]
  unfold out2_5
  rw [View.canon_unit_zero zero_offsets]
  simp only [View.ld_unit_zero (S := S2000x256) zero_offsets, View.ld_unit_zero (S := S256x64) zero_offsets, View.ld_unit_zero (S := S1x64) zero_offsets]
  obtain ⟨e00, e01, e10, e11, e20, e21, e30, e31, e40, e41, e5b, e51⟩ := idx_facts t
  funext j
  obtain ⟨p, q, rfl⟩ : ∃ (p : Fin 2000) (q : Fin 64), j = ix2 p q := ⟨j 0, j 1, eq_ix2 j⟩
  refine (pay_apply (iblk2 V c 0 t) (iblk2 V c 1 t) (iblk2 V c 2 t) (iblk2 V c 3 t) (iblk2 V c 4 t) p q).trans ?_
  have hout : ((cfg2.win 5).blk t).view.emb (ix2 p q) = ix2 (rowOf (win2_5.index t (0 : Fin 2)) e5b p) q := by
    funext a; apply Fin.ext
    match a with
    | ⟨0, _⟩ => show win2_5.index t (0 : Fin 2) * 2000 + 1 * p.val = win2_5.index t (0 : Fin 2) * 2000 + p.val; omega
    | ⟨1, _⟩ => show win2_5.index t (1 : Fin 2) * 64 + 1 * q.val = q.val; omega
  rw [View.read_apply, hout, hostLayerOut_apply]
  have h0 : ∀ k : Fin 256, iblk2 V c 0 t (ix2 p k) = V c (Pipeline.arrRef spec2 0) (ix2 (rowOf (win2_5.index t (0 : Fin 2)) e5b p) k) := fun k =>
    congrArg (V c (Pipeline.arrRef spec2 0)) (by
      funext a; apply Fin.ext
      match a with
      | ⟨0, _⟩ => show win2_0.index t (0 : Fin 2) * 2000 + 1 * p.val = win2_5.index t (0 : Fin 2) * 2000 + p.val; omega
      | ⟨1, _⟩ => show win2_0.index t (1 : Fin 2) * 256 + 1 * k.val = k.val; omega)
  have h1 : ∀ k : Fin 256, iblk2 V c 1 t (ix2 p k) = V c (Pipeline.arrRef spec2 1) (ix2 (rowOf (win2_5.index t (0 : Fin 2)) e5b p) k) := fun k =>
    congrArg (V c (Pipeline.arrRef spec2 1)) (by
      funext a; apply Fin.ext
      match a with
      | ⟨0, _⟩ => show win2_1.index t (0 : Fin 2) * 2000 + 1 * p.val = win2_5.index t (0 : Fin 2) * 2000 + p.val; omega
      | ⟨1, _⟩ => show win2_1.index t (1 : Fin 2) * 256 + 1 * k.val = k.val; omega)
  have h2 : (iblk2 V c 2 t : S256x64.Idx → EReal) = V c (Pipeline.arrRef spec2 2) := funext fun y =>
    congrArg (V c (Pipeline.arrRef spec2 2)) (by
      funext a; apply Fin.ext
      match a with
      | ⟨0, _⟩ => show win2_2.index t (0 : Fin 2) * 256 + 1 * (y 0).val = (y 0).val; omega
      | ⟨1, _⟩ => show win2_2.index t (1 : Fin 2) * 64 + 1 * (y 1).val = (y 1).val; omega)
  have h3 : (iblk2 V c 3 t : S256x64.Idx → EReal) = V c (Pipeline.arrRef spec2 3) := funext fun y =>
    congrArg (V c (Pipeline.arrRef spec2 3)) (by
      funext a; apply Fin.ext
      match a with
      | ⟨0, _⟩ => show win2_3.index t (0 : Fin 2) * 256 + 1 * (y 0).val = (y 0).val; omega
      | ⟨1, _⟩ => show win2_3.index t (1 : Fin 2) * 64 + 1 * (y 1).val = (y 1).val; omega)
  have h4 : iblk2 V c 4 t (ix2 (0 : Fin 1) q) = bias (ix1 q) := (congrArg (V c (Pipeline.arrRef spec2 4)) (by
      funext a; apply Fin.ext
      match a with
      | ⟨0, _⟩ => show win2_4.index t (0 : Fin 2) * 1 + 1 * 0 = 0; omega
      | ⟨1, _⟩ => show win2_4.index t (1 : Fin 2) * 64 + 1 * q.val = q.val; omega)).trans (hbias q)
  simp only [h0, h1, h2, h3, h4]
  exact (cast_eq _ _).symm

/-- The 25 blocks of 2000 rows tile the 50000 rows: row `r` lies in the block of the point whose block row is `r / 2000`. -/
theorem cover (c : Dev nD) (i : ((cfg2.win 5).arr.view.loc (c.tc : Thread nD τ)).2.ty.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ := idx_onto ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  show i ∈ ((View.whole main_v51).slice (win2_5.rect t)).set
  rw [View.set_slice_whole, Rect.mem_set_unit]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 64 ≤ (i 1).val ∧ (i 1).val < win2_5.index t (1 : Fin 2) * 64 + 64; omega

/-- THE OUTPUT ARRAY after the launch is the layer of the arrays as the launch finds them. -/
theorem array_eq (c : Dev nD) (bias : FVec Ideal Cert.ReferenceIdeal.S64 .f32)
    (hbias : ∀ q : Fin 64, (V c (Pipeline.arrRef spec2 4) : S1x64.Idx → EReal) (ix2 (0 : Fin 1) q) = bias (ix1 q)) :
    (dat2 V c).arrAt 5 cfg2.N
      = hostLayerOut (V c (Pipeline.arrRef spec2 0)) (V c (Pipeline.arrRef spec2 1)) (V c (Pipeline.arrRef spec2 2)) (V c (Pipeline.arrRef spec2 3)) bias :=
  (dat2 V c).arrAt_eq_of_cover 5 _ (fun t _ => flushed_eq V c t bias hbias) (cover c)

end Cert.KernelIdeal.Region2

end
-- ==== Proof.KernelChain.lean ====
/-
  The kernel's boundary contents, read.  With `e` the edge array and `x` the input features: after the first stretch
  of host operations the buffer the first launch reads as its averaged neighbour features holds `hostMean e x`; the
  launch leaves the first layer `h1` in its output; the second stretch averages `h1` over the same edges with the
  same degrees, the second launch leaves `h2`; the third stretch averages `h2`, and the third launch leaves the
  network's output `out` in the result buffer.  Between them every stretch and every launch leaves untouched the
  buffers it does not write: the sliced source and destination indices, the degrees, and the arguments are carried
  from the first stretch to where they are read.  Each bias reaches its launch as a vector laid out as one row.
-/
import proofs.«134186_j87600152969646_1_alg».proof.Proof.KernelIdealRun
import proofs.«134186_j87600152969646_1_alg».proof.Proof.KernelRegion0
import proofs.«134186_j87600152969646_1_alg».proof.Proof.KernelRegion1
import proofs.«134186_j87600152969646_1_alg».proof.Proof.KernelRegion2
import Idealize.ShloMosaic.Lib.StableHlo.Run
import Idealize.ShloMosaic.Lib.ValueLayout

set_option maxRecDepth 16384

noncomputable section

namespace Cert.KernelIdeal.Chain

open Cert.KernelIdeal Cert.KernelIdeal.Gen Idealize.ShloMosaic Idealize.ShloMosaic.TcCoe Idealize.ShloMosaic.ValueIdx Idealize.SL.Sem
open Idealize.ShloMosaic.StableHlo
open Cert.ReferenceIdeal.Layers

variable (m : (ℓ : Loc nD τ sig) → Buf (Elt Ideal) ℓ) (ρ : Dev nD → PrngReg) (c : Dev nD)

/-! ## After the first stretch -/

theorem W1_src : W1 m ρ c (Proc.devRef .tc main_v1) = Cert.ReferenceIdeal.Read.val_main_v1 (F := Ideal) (m ((c.tc : Thread nD τ).loc main_arg1)) := by
  show StableHlo.after hostOps0 (W0 m ρ c) _ = _
  dsimp only [hostOps0]
  after_results_simp
  all_goals rfl
theorem W1_dst : W1 m ρ c (Proc.devRef .tc main_v3) = Cert.ReferenceIdeal.Read.val_main_v3 (F := Ideal) (m ((c.tc : Thread nD τ).loc main_arg1)) := by
  show StableHlo.after hostOps0 (W0 m ρ c) _ = _
  dsimp only [hostOps0]
  after_results_simp
  all_goals rfl
theorem W1_deg : W1 m ρ c (Proc.devRef .tc main_v9) = Cert.ReferenceIdeal.Read.val_main_v19 (F := Ideal) (m ((c.tc : Thread nD τ).loc main_arg1)) := by
  show StableHlo.after hostOps0 (W0 m ρ c) _ = _
  dsimp only [hostOps0]
  after_results_simp
  all_goals rfl
theorem W1_arg0 : W1 m ρ c (Proc.devRef .tc main_arg0) = (m ((c.tc : Thread nD τ).loc main_arg0)) := by
  show StableHlo.after hostOps0 (W0 m ρ c) _ = _
  dsimp only [hostOps0]
  after_results_simp
  all_goals rfl
theorem W1_arg2 : W1 m ρ c (Proc.devRef .tc main_arg2) = (m ((c.tc : Thread nD τ).loc main_arg2)) := by
  show StableHlo.after hostOps0 (W0 m ρ c) _ = _
  dsimp only [hostOps0]
  after_results_simp
  all_goals rfl
theorem W1_arg3 : W1 m ρ c (Proc.devRef .tc main_arg3) = (m ((c.tc : Thread nD τ).loc main_arg3)) := by
  show StableHlo.after hostOps0 (W0 m ρ c) _ = _
  dsimp only [hostOps0]
  after_results_simp
  all_goals rfl
theorem W1_arg5 : W1 m ρ c (Proc.devRef .tc main_arg5) = (m ((c.tc : Thread nD τ).loc main_arg5)) := by
  show StableHlo.after hostOps0 (W0 m ρ c) _ = _
  dsimp only [hostOps0]
  after_results_simp
  all_goals rfl
theorem W1_arg6 : W1 m ρ c (Proc.devRef .tc main_arg6) = (m ((c.tc : Thread nD τ).loc main_arg6)) := by
  show StableHlo.after hostOps0 (W0 m ρ c) _ = _
  dsimp only [hostOps0]
  after_results_simp
  all_goals rfl
theorem W1_arg7 : W1 m ρ c (Proc.devRef .tc main_arg7) = (m ((c.tc : Thread nD τ).loc main_arg7)) := by
  show StableHlo.after hostOps0 (W0 m ρ c) _ = _
  dsimp only [hostOps0]
  after_results_simp
  all_goals rfl
theorem W1_arg8 : W1 m ρ c (Proc.devRef .tc main_arg8) = (m ((c.tc : Thread nD τ).loc main_arg8)) := by
  show StableHlo.after hostOps0 (W0 m ρ c) _ = _
  dsimp only [hostOps0]
  after_results_simp
  all_goals rfl
theorem W1_arg9 : W1 m ρ c (Proc.devRef .tc main_arg9) = (m ((c.tc : Thread nD τ).loc main_arg9)) := by
  show StableHlo.after hostOps0 (W0 m ρ c) _ = _
  dsimp only [hostOps0]
  after_results_simp
  all_goals rfl
theorem W1_arg10 : W1 m ρ c (Proc.devRef .tc main_arg10) = (m ((c.tc : Thread nD τ).loc main_arg10)) := by
  show StableHlo.after hostOps0 (W0 m ρ c) _ = _
  dsimp only [hostOps0]
  after_results_simp
  all_goals rfl

/-- The first launch's averaged neighbour features: the mean of the input rows over each node's incoming edges. -/
theorem W1_mean : W1 m ρ c (Proc.devRef .tc main_v21) = hostMean (m ((c.tc : Thread nD τ).loc main_arg1)) (m ((c.tc : Thread nD τ).loc main_arg0)) := by
  show StableHlo.after hostOps0 (W0 m ρ c) _ = _
  dsimp only [hostOps0]
  after_results_simp
  all_goals rfl

/-- The first bias as the launch finds it: one row holding the vector. -/
theorem W1_bias (q : Fin 256) : (W1 m ρ c (Proc.devRef .tc main_v22) : S1x256.Idx → EReal) (ix2 (0 : Fin 1) q) = ((m ((c.tc : Thread nD τ).loc main_arg4)) : S256.Idx → EReal) (ix1 q) := by
  have e : (W1 m ρ c (Proc.devRef .tc main_v22) : S1x256.Idx → EReal) = shapeCast S1x256 ((m ((c.tc : Thread nD τ).loc main_arg4)) : S256.Idx → EReal) shapeCasts_S256_S1x256 := by
    show StableHlo.after hostOps0 (W0 m ρ c) _ = _
    dsimp only [hostOps0]
    after_results_simp
    all_goals rfl
  rw [e]
  exact shapeCast_a_1a_apply _ _ _ _

/-! ## After the first launch -/

theorem W2_src : W2 m ρ c (Proc.devRef .tc main_v1) = Cert.ReferenceIdeal.Read.val_main_v1 (F := Ideal) (m ((c.tc : Thread nD τ).loc main_arg1)) := (W2_of_ne m ρ c main_v1 (by decide)).trans (W1_src m ρ c)
theorem W2_dst : W2 m ρ c (Proc.devRef .tc main_v3) = Cert.ReferenceIdeal.Read.val_main_v3 (F := Ideal) (m ((c.tc : Thread nD τ).loc main_arg1)) := (W2_of_ne m ρ c main_v3 (by decide)).trans (W1_dst m ρ c)
theorem W2_deg : W2 m ρ c (Proc.devRef .tc main_v9) = Cert.ReferenceIdeal.Read.val_main_v19 (F := Ideal) (m ((c.tc : Thread nD τ).loc main_arg1)) := (W2_of_ne m ρ c main_v9 (by decide)).trans (W1_deg m ρ c)
theorem W2_arg5 : W2 m ρ c (Proc.devRef .tc main_arg5) = (m ((c.tc : Thread nD τ).loc main_arg5)) := (W2_of_ne m ρ c main_arg5 (by decide)).trans (W1_arg5 m ρ c)
theorem W2_arg6 : W2 m ρ c (Proc.devRef .tc main_arg6) = (m ((c.tc : Thread nD τ).loc main_arg6)) := (W2_of_ne m ρ c main_arg6 (by decide)).trans (W1_arg6 m ρ c)
theorem W2_arg7 : W2 m ρ c (Proc.devRef .tc main_arg7) = (m ((c.tc : Thread nD τ).loc main_arg7)) := (W2_of_ne m ρ c main_arg7 (by decide)).trans (W1_arg7 m ρ c)
theorem W2_arg8 : W2 m ρ c (Proc.devRef .tc main_arg8) = (m ((c.tc : Thread nD τ).loc main_arg8)) := (W2_of_ne m ρ c main_arg8 (by decide)).trans (W1_arg8 m ρ c)
theorem W2_arg9 : W2 m ρ c (Proc.devRef .tc main_arg9) = (m ((c.tc : Thread nD τ).loc main_arg9)) := (W2_of_ne m ρ c main_arg9 (by decide)).trans (W1_arg9 m ρ c)
theorem W2_arg10 : W2 m ρ c (Proc.devRef .tc main_arg10) = (m ((c.tc : Thread nD τ).loc main_arg10)) := (W2_of_ne m ρ c main_arg10 (by decide)).trans (W1_arg10 m ρ c)

/-- The first launch leaves the first layer in its output array. -/
theorem W2_feat : W2 m ρ c (Proc.devRef .tc main_v23) = h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_arr m ρ c 5).trans ?_
  refine (Region0.array_eq (V1 m ρ) c (m ((c.tc : Thread nD τ).loc main_arg4)) (W1_bias m ρ c)).trans ?_
  show hostLayerRelu (W1 m ρ c (Proc.devRef .tc main_v21)) (W1 m ρ c (Proc.devRef .tc main_arg0)) (W1 m ρ c (Proc.devRef .tc main_arg2)) (W1 m ρ c (Proc.devRef .tc main_arg3)) (m ((c.tc : Thread nD τ).loc main_arg4)) = _
  rw [W1_mean, W1_arg0, W1_arg2, W1_arg3]
  rfl

/-! ## After the second stretch -/

theorem W3_src : W3 m ρ c (Proc.devRef .tc main_v1) = Cert.ReferenceIdeal.Read.val_main_v1 (F := Ideal) (m ((c.tc : Thread nD τ).loc main_arg1)) := by
  refine Eq.trans ?_ (W2_src m ρ c)
  show StableHlo.after hostOps1 (W2 m ρ c) _ = _
  dsimp only [hostOps1]
  after_results_simp
  all_goals rfl
theorem W3_dst : W3 m ρ c (Proc.devRef .tc main_v3) = Cert.ReferenceIdeal.Read.val_main_v3 (F := Ideal) (m ((c.tc : Thread nD τ).loc main_arg1)) := by
  refine Eq.trans ?_ (W2_dst m ρ c)
  show StableHlo.after hostOps1 (W2 m ρ c) _ = _
  dsimp only [hostOps1]
  after_results_simp
  all_goals rfl
theorem W3_deg : W3 m ρ c (Proc.devRef .tc main_v9) = Cert.ReferenceIdeal.Read.val_main_v19 (F := Ideal) (m ((c.tc : Thread nD τ).loc main_arg1)) := by
  refine Eq.trans ?_ (W2_deg m ρ c)
  show StableHlo.after hostOps1 (W2 m ρ c) _ = _
  dsimp only [hostOps1]
  after_results_simp
  all_goals rfl
theorem W3_arg5 : W3 m ρ c (Proc.devRef .tc main_arg5) = (m ((c.tc : Thread nD τ).loc main_arg5)) := by
  refine Eq.trans ?_ (W2_arg5 m ρ c)
  show StableHlo.after hostOps1 (W2 m ρ c) _ = _
  dsimp only [hostOps1]
  after_results_simp
  all_goals rfl
theorem W3_arg6 : W3 m ρ c (Proc.devRef .tc main_arg6) = (m ((c.tc : Thread nD τ).loc main_arg6)) := by
  refine Eq.trans ?_ (W2_arg6 m ρ c)
  show StableHlo.after hostOps1 (W2 m ρ c) _ = _
  dsimp only [hostOps1]
  after_results_simp
  all_goals rfl
theorem W3_arg8 : W3 m ρ c (Proc.devRef .tc main_arg8) = (m ((c.tc : Thread nD τ).loc main_arg8)) := by
  refine Eq.trans ?_ (W2_arg8 m ρ c)
  show StableHlo.after hostOps1 (W2 m ρ c) _ = _
  dsimp only [hostOps1]
  after_results_simp
  all_goals rfl
theorem W3_arg9 : W3 m ρ c (Proc.devRef .tc main_arg9) = (m ((c.tc : Thread nD τ).loc main_arg9)) := by
  refine Eq.trans ?_ (W2_arg9 m ρ c)
  show StableHlo.after hostOps1 (W2 m ρ c) _ = _
  dsimp only [hostOps1]
  after_results_simp
  all_goals rfl
theorem W3_arg10 : W3 m ρ c (Proc.devRef .tc main_arg10) = (m ((c.tc : Thread nD τ).loc main_arg10)) := by
  refine Eq.trans ?_ (W2_arg10 m ρ c)
  show StableHlo.after hostOps1 (W2 m ρ c) _ = _
  dsimp only [hostOps1]
  after_results_simp
  all_goals rfl

theorem W3_feat : W3 m ρ c (Proc.devRef .tc main_v23) = h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine Eq.trans ?_ (W2_feat m ρ c)
  show StableHlo.after hostOps1 (W2 m ρ c) _ = _
  dsimp only [hostOps1]
  after_results_simp
  all_goals rfl

/-- The second launch's averaged neighbour features: the mean of the first layer's rows over the same edges, divided
    by the same degrees. -/
theorem W3_mean : W3 m ρ c (Proc.devRef .tc main_v35) = hostMean (m ((c.tc : Thread nD τ).loc main_arg1)) (h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  show StableHlo.after hostOps1 (W2 m ρ c) _ = _
  dsimp only [hostOps1]
  after_results_simp
  rw [W2_src, W2_dst, W2_deg, W2_feat]
  all_goals rfl

theorem W3_bias (q : Fin 256) : (W3 m ρ c (Proc.devRef .tc main_v36) : S1x256.Idx → EReal) (ix2 (0 : Fin 1) q) = ((m ((c.tc : Thread nD τ).loc main_arg7)) : S256.Idx → EReal) (ix1 q) := by
  have e : (W3 m ρ c (Proc.devRef .tc main_v36) : S1x256.Idx → EReal) = shapeCast S1x256 ((m ((c.tc : Thread nD τ).loc main_arg7)) : S256.Idx → EReal) shapeCasts_S256_S1x256 := by
    show StableHlo.after hostOps1 (W2 m ρ c) _ = _
    dsimp only [hostOps1]
    after_results_simp
    rw [W2_arg7]
    all_goals rfl
  rw [e]
  exact shapeCast_a_1a_apply _ _ _ _

/-! ## After the second launch -/

theorem W4_src : W4 m ρ c (Proc.devRef .tc main_v1) = Cert.ReferenceIdeal.Read.val_main_v1 (F := Ideal) (m ((c.tc : Thread nD τ).loc main_arg1)) := (W4_of_ne m ρ c main_v1 (by decide)).trans (W3_src m ρ c)
theorem W4_dst : W4 m ρ c (Proc.devRef .tc main_v3) = Cert.ReferenceIdeal.Read.val_main_v3 (F := Ideal) (m ((c.tc : Thread nD τ).loc main_arg1)) := (W4_of_ne m ρ c main_v3 (by decide)).trans (W3_dst m ρ c)
theorem W4_deg : W4 m ρ c (Proc.devRef .tc main_v9) = Cert.ReferenceIdeal.Read.val_main_v19 (F := Ideal) (m ((c.tc : Thread nD τ).loc main_arg1)) := (W4_of_ne m ρ c main_v9 (by decide)).trans (W3_deg m ρ c)
theorem W4_arg8 : W4 m ρ c (Proc.devRef .tc main_arg8) = (m ((c.tc : Thread nD τ).loc main_arg8)) := (W4_of_ne m ρ c main_arg8 (by decide)).trans (W3_arg8 m ρ c)
theorem W4_arg9 : W4 m ρ c (Proc.devRef .tc main_arg9) = (m ((c.tc : Thread nD τ).loc main_arg9)) := (W4_of_ne m ρ c main_arg9 (by decide)).trans (W3_arg9 m ρ c)
theorem W4_arg10 : W4 m ρ c (Proc.devRef .tc main_arg10) = (m ((c.tc : Thread nD τ).loc main_arg10)) := (W4_of_ne m ρ c main_arg10 (by decide)).trans (W3_arg10 m ρ c)

/-- The second launch leaves the second layer in its output array. -/
theorem W4_feat : W4 m ρ c (Proc.devRef .tc main_v37) = h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 5).trans ?_
  refine (Region1.array_eq (V3 m ρ) c (m ((c.tc : Thread nD τ).loc main_arg7)) (W3_bias m ρ c)).trans ?_
  show hostLayerRelu (W3 m ρ c (Proc.devRef .tc main_v35)) (W3 m ρ c (Proc.devRef .tc main_v23)) (W3 m ρ c (Proc.devRef .tc main_arg5)) (W3 m ρ c (Proc.devRef .tc main_arg6)) (m ((c.tc : Thread nD τ).loc main_arg7)) = _
  rw [W3_mean, W3_feat, W3_arg5, W3_arg6]
  rfl

/-! ## After the third stretch -/

theorem W5_arg8 : W5 m ρ c (Proc.devRef .tc main_arg8) = (m ((c.tc : Thread nD τ).loc main_arg8)) := by
  refine Eq.trans ?_ (W4_arg8 m ρ c)
  show StableHlo.after hostOps2 (W4 m ρ c) _ = _
  dsimp only [hostOps2]
  after_results_simp
  all_goals rfl
theorem W5_arg9 : W5 m ρ c (Proc.devRef .tc main_arg9) = (m ((c.tc : Thread nD τ).loc main_arg9)) := by
  refine Eq.trans ?_ (W4_arg9 m ρ c)
  show StableHlo.after hostOps2 (W4 m ρ c) _ = _
  dsimp only [hostOps2]
  after_results_simp
  all_goals rfl

theorem W5_feat : W5 m ρ c (Proc.devRef .tc main_v37) = h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine Eq.trans ?_ (W4_feat m ρ c)
  show StableHlo.after hostOps2 (W4 m ρ c) _ = _
  dsimp only [hostOps2]
  after_results_simp
  all_goals rfl

/-- The third launch's averaged neighbour features: the mean of the second layer's rows. -/
theorem W5_mean : W5 m ρ c (Proc.devRef .tc main_v49) = hostMean (m ((c.tc : Thread nD τ).loc main_arg1)) (h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  show StableHlo.after hostOps2 (W4 m ρ c) _ = _
  dsimp only [hostOps2]
  after_results_simp
  rw [W4_src, W4_dst, W4_deg, W4_feat]
  all_goals rfl

theorem W5_bias (q : Fin 64) : (W5 m ρ c (Proc.devRef .tc main_v50) : S1x64.Idx → EReal) (ix2 (0 : Fin 1) q) = ((m ((c.tc : Thread nD τ).loc main_arg10)) : S64.Idx → EReal) (ix1 q) := by
  have e : (W5 m ρ c (Proc.devRef .tc main_v50) : S1x64.Idx → EReal) = shapeCast S1x64 ((m ((c.tc : Thread nD τ).loc main_arg10)) : S64.Idx → EReal) shapeCasts_S64_S1x64 := by
    show StableHlo.after hostOps2 (W4 m ρ c) _ = _
    dsimp only [hostOps2]
    after_results_simp
    rw [W4_arg10]
    all_goals rfl
  rw [e]
  exact shapeCast_a_1a_apply _ _ _ _

/-! ## After the third launch -/

/-- THE RESULT BUFFER at the end of the run holds the network's output, as a function of the arguments. -/
theorem W6_out : W6 m ρ c (Proc.devRef .tc main_v51)
    = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W6_arr m ρ c 5).trans ?_
  refine (Region2.array_eq (V5 m ρ) c (m ((c.tc : Thread nD τ).loc main_arg10)) (W5_bias m ρ c)).trans ?_
  show hostLayerOut (W5 m ρ c (Proc.devRef .tc main_v49)) (W5 m ρ c (Proc.devRef .tc main_v37)) (W5 m ρ c (Proc.devRef .tc main_arg8)) (W5 m ρ c (Proc.devRef .tc main_arg9)) (m ((c.tc : Thread nD τ).loc main_arg10)) = _
  rw [W5_mean, W5_feat, W5_arg8, W5_arg9]
  rfl

end Cert.KernelIdeal.Chain

end
-- ==== Proof.lean ====
/- The proof of `Cert.Claim` for a three-layer neighbourhood-mean graph network (50000 nodes, 800000 edges,
   widths 256 → 256 → 256 → 64).  Each layer averages the current features over every node's incoming edges (gather
   the source rows, add them per destination, divide by the degree floored at one: host operations in both programs)
   and applies `mean · Wl + features · Wr + b`, floored at zero in the first two layers.  The kernel computes that dense
   half in a launch over 25 blocks of 2000 rows, both operands of each product rounded to bfloat16 first; the
   reference computes it with whole-array products.  On the extended reals the rounding is the identity, a product
   into a zero accumulator and a whole-array product are the same sum over the contracted coordinate, and entry
   `(p, q)` of a layer depends on row `p` only, so a block of rows of the layer is the layer of that block of rows:
   both programs end with the same function `out` of the arguments in the result buffer.  No step uses a law that
   fails at an infinity, so the precondition is never opened.
   * Proof/LibMlpRows.lean, Proof/LibSageLayer.lean: the dense half at an entry, in both spellings;
   * Proof/RefLayers.lean: the reference's stages as compositions of the mean and the dense half;
   * Proof/KernelRegion0/1/2.lean: what each launch leaves in its output array;
   * Proof/KernelIdealRun.lean: the kernel's run with its final memory read;
   * Proof/KernelChain.lean: the contents at each boundary of @main, down to the result buffer. -/
import proofs.«134186_j87600152969646_1_alg».proof.Defs
import proofs.«134186_j87600152969646_1_alg».proof.Proof.Gen.Kernel
import proofs.«134186_j87600152969646_1_alg».proof.Proof.Gen.KernelIdeal
import proofs.«134186_j87600152969646_1_alg».proof.Proof.Gen.ReferenceIdeal
import proofs.«134186_j87600152969646_1_alg».proof.Proof.Gen.Pre_finite_inputs
import proofs.«134186_j87600152969646_1_alg».proof.Proof.Gen.ReferenceIdeal.Run
import proofs.«134186_j87600152969646_1_alg».proof.Proof.Gen.ReferenceIdeal.Read
import proofs.«134186_j87600152969646_1_alg».proof.Proof.KernelFrame
import proofs.«134186_j87600152969646_1_alg».proof.Proof.KernelIdealFrame
import proofs.«134186_j87600152969646_1_alg».proof.Proof.KernelIdealRun
import proofs.«134186_j87600152969646_1_alg».proof.Proof.KernelChain
import proofs.«134186_j87600152969646_1_alg».proof.Proof.RefLayers
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments: its read run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with `out` of the arguments in the result buffer:
    the kernel by the chain of its boundary contents, the reference because its stages are the layers. -/
theorem algebraic : Cert.algebraic_KernelIdeal_ReferenceIdeal := by
  intro m ρ m' ρ' _ hagree
  refine ⟨fun c => Cert.ReferenceIdeal.Layers.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.W6_out m ρ c), (h c).2⟩)
      (Cert.KernelIdeal.RunRead.run_result m ρ)
  · refine (θ_run Cert.ReferenceIdeal.defs _ _).mono (fun _ h c => ⟨?_, (h c).2⟩)
      (Cert.ReferenceIdeal.Value.run (F := Ideal) m' ρ')
    obtain ⟨g0, g1, g2, g3, g4, g5, g6, g7, g8, g9, g10⟩ := hagree c
    rw [(h c).1, Cert.ReferenceIdeal.Read.val_main_v77_eq, Cert.ReferenceIdeal.Layers.v77_eq,
      g0, g1, g2, g3, g4, g5, g6, g7, g8, g9, g10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
